-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x40, .f32⟩
  | .local _ .vmem, ⟨8, _⟩ => ⟨S2000x40, .f32⟩
  | .local _ .vmem, ⟨9, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S100000x40.size a
  hwx1_2 : ∀ i : grid1.Coords, EltTy.bits .f32 = 32 ∨ (Rect.block (s := S100000x40) S2000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000, .f32⟩
  | .hbm, ⟨102, _⟩ => ⟨S3300000, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x40, .f32⟩
  | .hbm, ⟨112, _⟩ => ⟨S3300000x1, .f32⟩
  | .hbm, ⟨113, _⟩ => ⟨S3300000x40, .f32⟩
  | .hbm, ⟨114, _⟩ => ⟨S3300000x40, .f32⟩
  | .hbm, ⟨115, _⟩ => ⟨S_, .f32⟩
  | .hbm, ⟨116, _⟩ => ⟨S100000x40, .f32⟩
  | .hbm, ⟨117, _⟩ => ⟨S3300000x1, .i32⟩
  | .hbm, ⟨118, _⟩ => ⟨S100000x40, .f32⟩
  | .hbm, ⟨119, _⟩ => ⟨S1x40, .f32⟩
  | .hbm, ⟨120, _⟩ => ⟨S100000x40, .f32⟩
  | .hbm, ⟨121, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's whole run, with its result named.

  The program is a line of host operations, a tiled matrix product, more host operations, a second tiled matrix
  product, and a last stretch of host operations.  Every weakly fair execution terminates, and the final memory holds,
  in every buffer that lives for the whole program, what the fold of those eight segments over the launch memory leaves
  there.  The frame claim reads that fold at the six argument buffers; here it is read at the result buffer as well, so
  that the result is  W8 … main_v64 : the last stretch of host operations applied to what the second product left.
-/
import proofs.«129669_j29978871726723_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's run theorem finds its implicit arguments by unifying its conclusion with this one, which takes
-- unfolding plain definitions in a metavariable's type
set_option backward.isDefEq.respectTransparency.types false in
/-- Every weakly fair execution of the program terminates without a fault; the result buffer ends at the last
    segment boundary's contents of it, and the six argument buffers end as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.GraphConv.lean ====
/-
  The host side of a two-layer graph convolution, as functions of arrays.

  Both programs hand the node features to the same chain of host operations: the edge list, with a self-loop appended
  for every node, gives each edge a weight  d(src)^(-1/2) · d(dst)^(-1/2)  (d the in-degree counted over the target
  endpoints, the weight 0 where the degree is not positive); a layer gathers the rows of a node matrix at the source
  endpoints, scales each gathered row by its edge's weight, adds the rows up at the target endpoints and adds a bias
  row.  The functions below name that chain, piece by piece, so that a proof about the two programs never has to open
  a gather, a scatter-add or a reciprocal square root: it only has to show that the programs feed the chain the same
  node matrices.
-/
import proofs.«129669_j29978871726723_1_alg».proof.Proof.Gen.KernelIdeal

noncomputable section

namespace Cert.GraphConv

open Idealize.ShloMosaic Cert.KernelIdeal Cert.KernelIdeal.Gen

variable {F : FTy → Type} [FloatOps F]

/-- One row of the edge list followed by the self-loops 0, 1, …, n − 1. -/
def withLoops (row : (⟨S1x3200000, .i32⟩ : BufTy).Contents (Elt F)) : (⟨S3300000, .i32⟩ : BufTy).Contents (Elt F) :=
  concatenate S3300000 0 [⟨S3200000, shapeCast S3200000 row shapeCasts_S1x3200000_S3200000⟩, ⟨S100000, iotaInDim S100000 32 0⟩]
    concatenates_S3200000_S100000_S3300000_d0

/-- The source endpoint of every edge (row 0 of the edge list), self-loops appended. -/
def sources (e : (⟨S2x3200000, .i32⟩ : BufTy).Contents (Elt F)) : (⟨S3300000, .i32⟩ : BufTy).Contents (Elt F) :=
  withLoops (extractStridedSlice S1x3200000 ![0, 0] e slices_S2x3200000_S1x3200000_0_0)

/-- The target endpoint of every edge (row 1 of the edge list), self-loops appended. -/
def targets (e : (⟨S2x3200000, .i32⟩ : BufTy).Contents (Elt F)) : (⟨S3300000, .i32⟩ : BufTy).Contents (Elt F) :=
  withLoops (extractStridedSlice S1x3200000 ![1, 0] e slices_S2x3200000_S1x3200000_1_0)

/-- Endpoints as a column of gather positions: a negative endpoint counts from the end (n is added to it). -/
def positions (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Endpoints as a column of scatter positions, as they are. -/
def column (v : (⟨S3300000, .i32⟩ : BufTy).Contents (Elt F)) : (⟨S3300000x1, .i32⟩ : BufTy).Contents (Elt F) :=
  broadcastInDim S3300000x1 ![0] bcast_S3300000_S3300000x1_0 v

/-- d^(-1/2) per node, d the number of edges that end at the node; 0 where that number is not positive. -/
def invSqrtDegree (dst : (⟨S3300000, .i32⟩ : BufTy).Contents (Elt F)) : (⟨S100000, .f32⟩ : BufTy).Contents (Elt F) :=
  let deg : (⟨S100000, .f32⟩ : BufTy).Contents (Elt F) :=
    Host.scatterAdd scatter_S100000_S3300000x1_S3300000_n_0_0_1
      (broadcastInDim S100000 ![] bcast_S_S100000 (constant (F := F) S_ .f32 0x00000000#32)) (column dst)
      (broadcastInDim S3300000 ![] bcast_S_S3300000 (constant (F := F) S_ .f32 0x3F800000#32))
  select (cmpf .ogt deg (broadcastInDim S100000 ![] bcast_S_S100000 (constant (F := F) S_ .f32 0x00000000#32)))
    (Host.rsqrt deg) (broadcastInDim S100000 ![] bcast_S_S100000 (id (constant (F := F) S_ .f32 0x00000000#32)))

/-- The weight of every edge: the product of its two endpoints' d^(-1/2). -/
def edgeWeights (src dst : (⟨S3300000, .i32⟩ : BufTy).Contents (Elt F)) : (⟨S3300000, .f32⟩ : BufTy).Contents (Elt F) :=
  mulf (Host.gather gather_S100000_S3300000x1_S3300000_n_0_n_n_0_1_1 (invSqrtDegree dst) (positions src))
    (Host.gather gather_S100000_S3300000x1_S3300000_n_0_n_n_0_1_1 (invSqrtDegree dst) (positions dst))

/-- The first layer's aggregation of a 16-column node matrix: gather at the sources, scale by the edge weights,
    add up at the targets, add the bias row. -/
def aggregate16 (h : (⟨S100000x16, .f32⟩ : BufTy).Contents (Elt F)) (src dst : (⟨S3300000, .i32⟩ : BufTy).Contents (Elt F))
    (w : (⟨S3300000, .f32⟩ : BufTy).Contents (Elt F)) (b : (⟨S16, .f32⟩ : BufTy).Contents (Elt F)) :
    (⟨S100000x16, .f32⟩ : BufTy).Contents (Elt F) :=
  addf (Host.scatterAdd scatter_S100000x16_S3300000x1_S3300000x16_1_0_0_1
      (broadcastInDim S100000x16 ![] bcast_S_S100000x16 (constant (F := F) S_ .f32 0x00000000#32)) (column dst)
      (mulf (Host.gather gather_S100000x16_S3300000x1_S3300000x16_1_0_n_n_0_1_116 h (positions src))
        (broadcastInDim S3300000x16 ![0, 1] bcast_S3300000x1_S3300000x16_0_1
          (broadcastInDim S3300000x1 ![0] bcast_S3300000_S3300000x1_0 w))))
    (broadcastInDim S100000x16 ![0, 1] bcast_S1x16_S100000x16_0_1 (broadcastInDim S1x16 ![1] bcast_S16_S1x16_1 b))

/-- max(·, 0), entry by entry. -/
def relu16 (v : (⟨S100000x16, .f32⟩ : BufTy).Contents (Elt F)) : (⟨S100000x16, .f32⟩ : BufTy).Contents (Elt F) :=
  maximumf v (broadcastInDim S100000x16 ![] bcast_S_S100000x16 (constant (F := F) S_ .f32 0x00000000#32))

/-- The second layer's aggregation of a 40-column node matrix. -/
def aggregate40 (h : (⟨S100000x40, .f32⟩ : BufTy).Contents (Elt F)) (src dst : (⟨S3300000, .i32⟩ : BufTy).Contents (Elt F))
    (w : (⟨S3300000, .f32⟩ : BufTy).Contents (Elt F)) (b : (⟨S40, .f32⟩ : BufTy).Contents (Elt F)) :
    (⟨S100000x40, .f32⟩ : BufTy).Contents (Elt F) :=
  addf (Host.scatterAdd scatter_S100000x40_S3300000x1_S3300000x40_1_0_0_1
      (broadcastInDim S100000x40 ![] bcast_S_S100000x40 (constant (F := F) S_ .f32 0x00000000#32)) (column dst)
      (mulf (Host.gather gather_S100000x40_S3300000x1_S3300000x40_1_0_n_n_0_1_140 h (positions src))
        (broadcastInDim S3300000x40 ![0, 1] bcast_S3300000x1_S3300000x40_0_1
          (broadcastInDim S3300000x1 ![0] bcast_S3300000_S3300000x1_0 w))))
    (broadcastInDim S100000x40 ![0, 1] bcast_S1x40_S100000x40_0_1 (broadcastInDim S1x40 ![1] bcast_S40_S1x40_1 b))

end Cert.GraphConv

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibHostDot.lean ====
/-
  The host's matrix product read at one entry, over the extended reals.

  A `dot_general` of an [A, K] matrix by a [K, B] matrix that contracts the left operand's second axis with the
  right operand's first has at entry (r, j) the value Σ_k lhs[r, k] · rhs[k, j]: over the extended reals the host's
  product is the exact sum, whatever order a schedule would add it in.  The same statement for a product accumulated
  into the zero matrix is `Cert.LibMatmul.plain_matmul_zero_apply`; the two sums are term for term the same.
-/
import Idealize.ShloMosaic.PureOps.Ideal.Laws
import Idealize.ShloMosaic.Lib.ValueIdx

noncomputable section

namespace Cert.LibHostDot

open Idealize.ShloMosaic Idealize.ShloMosaic.ValueIdx

/-- Entry (r, j) of the host's plain matrix product is the sum over the contracted axis. -/
theorem plain_dotGeneral_apply {A K B : Nat} {φ₁ φ₂ : FTy} (prec : Option ContractPrecision) (sched : HostSchedule)
    (lhs : FVec Ideal ⟨2, ![A, K]⟩ φ₁) (rhs : FVec Ideal ⟨2, ![K, B]⟩ φ₂) (r : Fin A) (j : Fin B) :
    FloatOps.dotGeneral (DotDims.plain A K B) prec sched lhs rhs (ix2 r j)
      = ∑ k : Fin K, lhs (ix2 r k) * rhs (ix2 k j) := by
  rw [Ideal.dotGeneral_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibHostDot

end
-- ==== Proof.LibMatProduct.lean ====
/-
  The product of two matrices over the extended reals, and two ways a program spells it.

  For an [A, K] matrix x and a [K, B] matrix w the product has at entry (r, j) the value Σ_k x[r, k] · w[k, j].
  The host's dot_general computes exactly that array.  A kernel that walks the rows of x in bands of R rows,
  multiplying each band by the whole of w into a zero accumulator, computes on each band the corresponding rows of the
  same array: the sum at an entry only reads row r of x, and row r of the band is row (band offset + r) of x.
-/
import proofs.«129669_j29978871726723_1_alg».proof.Proof.LibMatmul
import proofs.«129669_j29978871726723_1_alg».proof.Proof.LibHostDot

noncomputable section

namespace Cert.MatProduct

open Idealize.ShloMosaic Idealize.ShloMosaic.ValueIdx

/-- The product of an [A, K] matrix by a [K, B] matrix, entry by entry. -/
def prod {A K B : Nat} (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Entry (r, j) of the product. -/
theorem prod_apply {A K B : Nat} (x : FVec Ideal ⟨2, ![A, K]⟩ .f32) (w : FVec Ideal ⟨2, ![K, B]⟩ .f32) (r : Fin A) (j : Fin B) :
    prod x w (ix2 r j) = ∑ k : Fin K, x (ix2 r k) * w (ix2 k j) := rfl

/-- The host's plain dot_general of x and w is their product. -/
theorem hostDot_eq {A K B : Nat} (prec : Option ContractPrecision) (sched : HostSchedule)
    (x : FVec Ideal ⟨2, ![A, K]⟩ .f32) (w : FVec Ideal ⟨2, ![K, B]⟩ .f32) :
    FloatOps.dotGeneral (DotDims.plain A K B) prec sched x w = prod x w := by
  funext i
  obtain ⟨r, j, rfl⟩ : ∃ (r : Fin A) (j : Fin B), i = ix2 r j := ⟨i 0, i 1, eq_ix2 i⟩
  exact (Cert.LibHostDot.plain_dotGeneral_apply prec sched x w r j).trans (prod_apply x w r j).symm

/-- A band of R rows of x (row p of the band is row `row p` of x), multiplied by w into a zero accumulator, has at
    entry (p, q) the product's entry (row p, q). -/
theorem band_apply {A K B R : Nat} (prec : Option ContractPrecision)
    (x : FVec Ideal ⟨2, ![A, K]⟩ .f32) (w : FVec Ideal ⟨2, ![K, B]⟩ .f32)
    (xb : FVec Ideal ⟨2, ![R, K]⟩ .f32) (wb : FVec Ideal ⟨2, ![K, B]⟩ .f32) (row : Fin R → Fin A)
    (hx : ∀ p k, xb (ix2 p k) = x (ix2 (row p) k)) (hw : ∀ k q, wb (ix2 k q) = w (ix2 k q)) (p : Fin R) (q : Fin B) :
    FloatOps.matmul (DotDims.plain R K B) prec xb wb (constant (F := Ideal) ⟨2, ![R, B]⟩ .f32 0x00000000#32) (ix2 p q)
      = prod x w (ix2 (row p) q) := by
  rw [Cert.LibMatmul.plain_matmul_zero_apply, prod_apply]
  exact Finset.sum_congr rfl fun k _ => by rw [hx p k, hw k q]

end Cert.MatProduct

end
-- ==== Proof.TwoLayers.lean ====
/-
  The two-layer graph convolution as ONE function of the six argument arrays, over the extended reals:

      out = Agg40( relu( Agg16( x · W1 ; b1 ) ) · W2 ; b2 )

  where Agg gathers the rows of a node matrix at the edges' sources, scales them by the edge weights, adds them up at the
  edges' targets and adds the bias row (Cert.GraphConv), and · is the matrix product (Cert.MatProduct).  Both programs
  are shown to end with their result array at this function of their arguments.
-/
import proofs.«129669_j29978871726723_1_alg».proof.Proof.GraphConv
import proofs.«129669_j29978871726723_1_alg».proof.Proof.LibMatProduct

noncomputable section

namespace Cert.GraphConv

open Idealize.ShloMosaic Cert.KernelIdeal Cert.KernelIdeal.Gen

/-- The network's output as a function of the node features, the edge list, and the two layers' weights and biases. -/
def twoLayers (x : (⟨S100000x512, .f32⟩ : BufTy).Contents (Elt Ideal)) (e : (⟨S2x3200000, .i32⟩ : BufTy).Contents (Elt Ideal))
    (w1 : (⟨S512x16, .f32⟩ : BufTy).Contents (Elt Ideal)) (b1 : (⟨S16, .f32⟩ : BufTy).Contents (Elt Ideal))
    (w2 : (⟨S16x40, .f32⟩ : BufTy).Contents (Elt Ideal)) (b2 : (⟨S40, .f32⟩ : BufTy).Contents (Elt Ideal)) :
    (⟨S100000x40, .f32⟩ : BufTy).Contents (Elt Ideal) :=
  aggregate40
    (MatProduct.prod (relu16 (aggregate16 (MatProduct.prod x w1) (sources e) (targets e) (edgeWeights (sources e) (targets e)) b1)) w2)
    (sources e) (targets e) (edgeWeights (sources e) (targets e)) b2

end Cert.GraphConv

end
-- ==== Proof.FirstProduct.lean ====
/-
  The first tiled matrix product: what the result array holds after the region.

  The region walks the 100000 rows of the node features x in 50 bands of 2000 rows.  At band t the body loads the
  band and the whole 512 × 16 weight matrix, rounds both to bf16 (no change over the extended reals), multiplies them
  into a zero accumulator and stores the 2000 × 16 result as band t of the output.  Entry (p, q) of that block is
  Σ_k x[2000 t + p, k] · w[k, q], which is entry (2000 t + p, q) of the product x · w; the 50 bands tile the output, so
  after the region the output array is the whole product.
-/
import proofs.«129669_j29978871726723_1_alg».proof.Proof.Gen.KernelIdeal.Frame
import proofs.«129669_j29978871726723_1_alg».proof.Proof.LibMatProduct
import Idealize.ShloMosaic.Lib.Pipeline.Value
import Idealize.ShloMosaic.Lib.ValueIdx

set_option maxRecDepth 16384

noncomputable section

namespace Cert.KernelIdeal.FirstProduct

open Cert.KernelIdeal Cert.KernelIdeal.Gen
open Idealize.ShloMosaic Idealize.ShloMosaic.TcCoe Idealize.ShloMosaic.ValueIdx Idealize.SL.Sem
open Idealize.ShloMosaic.Pipeline (Dat)

-- the buffer contents the region is entered with: a parameter, as in the frame
variable (V : (c : Dev nD) → (b : Ref sig .tc) → Buf (Elt Ideal) ((c : Thread nD τ).loc b))

/-- The body's loads and its store are through whole-block rectangles: offset 0 on both axes. -/
theorem offset_zero : (![0, 0] : Fin 2 → Nat) = fun _ => 0 := funext fun a => by fin_cases a <;> rfl

/-- What the body stores, at entry (p, q) of its block: with the left block a band of rows of X (row p of the band is
    row `row p` of X) and the right block all of W, the product's entry (row p, q). -/
theorem payload_apply (x0 : Vec Ideal S2000x512 .f32) (x1 : Vec Ideal S512x16 .f32)
    (X : FVec Ideal S100000x512 .f32) (W : FVec Ideal S512x16 .f32) (row : Fin 2000 → Fin 100000)
    (hx : ∀ p k, x0 (ix2 p k) = X (ix2 (row p) k)) (hw : ∀ k q, x1 (ix2 k q) = W (ix2 k q)) (p : Fin 2000) (q : Fin 16) :
    k0_pay1 x0 x1 (ix2 p q) = MatProduct.prod X W (ix2 (row p) q) := by
  exact MatProduct.band_apply none X W x0 x1 row hx hw p q

/-- The printed index maps over the 50 grid points: the left operand's and the result's blocks are band t, the right
    operand's block is always the whole matrix. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is band t of the product of the two input arrays as the region finds them. -/
theorem flushed_eq (c : Dev nD) (t : Fin cfg0.N) :
    (dat0 V c).flushed 2 t
      = ((cfg0.win 2).blk t).view.read (Elt Ideal) (MatProduct.prod (V c main_arg0) (V c main_arg2)) := by
  show (cfg0.win 2).cut (grid0.coords t) ((dat0 V c).after 2 t) = _
  rw [after0_2]
  unfold out0_2
  rw [View.canon_unit_zero offset_zero]
  simp only [View.ld_unit_zero (S := S2000x512) offset_zero, View.ld_unit_zero (S := S512x16) offset_zero]
  obtain ⟨e00, e01, e10, e11, e20, e21⟩ := index_facts t
  have ht : t.val < 50 := by have h : cfg0.N = 50 := N_0; have := t.isLt; omega
  have hrow : ∀ p : Fin 2000, t.val * 2000 + p.val < 100000 := fun p => by have := p.isLt; omega
  funext j
  obtain ⟨p, q, rfl⟩ : ∃ (p : Fin 2000) (q : Fin 16), j = ix2 p q := ⟨j 0, j 1, eq_ix2 j⟩
  show k0_pay1 (iblk0 V c 0 t) (iblk0 V c 1 t) (ix2 p q)
    = MatProduct.prod (V c main_arg0) (V c main_arg2) (((cfg0.win 2).blk t).view.emb (ix2 p q))
  have hout : ((cfg0.win 2).blk t).view.emb (ix2 p q) = ix2 (⟨t.val * 2000 + p.val, hrow p⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 16 + 1 * q.val = q.val; omega
  rw [hout]
  refine payload_apply (iblk0 V c 0 t) (iblk0 V c 1 t) (V c main_arg0) (V c main_arg2)
    (fun p => ⟨t.val * 2000 + p.val, hrow p⟩) (fun p k => ?_) (fun k q => ?_) p q
  · show V c main_arg0 (((cfg0.win 0).blk t).view.emb (ix2 p k)) = V c main_arg0 (ix2 (⟨t.val * 2000 + p.val, hrow p⟩ : Fin 100000) k)
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 16 + 1 * q.val = q.val; omega

/-- An entry of the result array is in point t's block iff each coordinate is in the block's range on its axis. -/
theorem mem_block (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- The 50 bands of 2000 rows cover the result array: row r is in band r / 2000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  have hlt : (i 0).val / 2000 < cfg0.N := by omega
  obtain ⟨e00, e01, e10, e11, e20, e21⟩ := index_facts ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    have e : win0_2.index ⟨(i 0).val / 2000, hlt⟩ (0 : Fin 2) = (i 0).val / 2000 := e20
    omega
  | ⟨1, _⟩ =>
    show win0_2.index ⟨(i 0).val / 2000, hlt⟩ (1 : Fin 2) * 16 ≤ (i 1).val
      ∧ (i 1).val < win0_2.index ⟨(i 0).val / 2000, hlt⟩ (1 : Fin 2) * 16 + 16
    omega

/-- The result array after the region: the product of the two input arrays as the region finds them. -/
theorem array_eq (c : Dev nD) :
    (dat0 V c).arrAt 2 cfg0.N = MatProduct.prod (V c main_arg0) (V c main_arg2) :=
  (dat0 V c).arrAt_eq_of_cover 2 _ (fun t _ => flushed_eq V c t) covered

end Cert.KernelIdeal.FirstProduct

end
-- ==== Proof.SecondProduct.lean ====
/-
  The second tiled matrix product: what the result array holds after the region.

  The region walks the 100000 rows of the hidden node matrix h in 50 bands of 2000 rows.  At band t the body loads the
  band (a shape cast to the same shape changes nothing) and the whole 16 × 40 weight matrix, rounds both to bf16 (no
  change over the extended reals), multiplies them into a zero accumulator and stores the 2000 × 40 result as band t of
  the output.  Entry (p, q) of that block is Σ_k h[2000 t + p, k] · w[k, q], entry (2000 t + p, q) of the product h · w;
  the 50 bands tile the output, so after the region the output array is the whole product.
-/
import proofs.«129669_j29978871726723_1_alg».proof.Proof.Gen.KernelIdeal.Frame
import proofs.«129669_j29978871726723_1_alg».proof.Proof.LibMatProduct
import Idealize.ShloMosaic.Lib.Pipeline.Value
import Idealize.ShloMosaic.Lib.ValueIdx

set_option maxRecDepth 16384

noncomputable section

namespace Cert.KernelIdeal.SecondProduct

open Cert.KernelIdeal Cert.KernelIdeal.Gen
open Idealize.ShloMosaic Idealize.ShloMosaic.TcCoe Idealize.ShloMosaic.ValueIdx Idealize.SL.Sem
open Idealize.ShloMosaic.Pipeline (Dat)

-- the buffer contents the region is entered with: a parameter, as in the frame
variable (V : (c : Dev nD) → (b : Ref sig .tc) → Buf (Elt Ideal) ((c : Thread nD τ).loc b))

/-- The body's loads and its store are through whole-block rectangles: offset 0 on both axes. -/
theorem offset_zero : (![0, 0] : Fin 2 → Nat) = fun _ => 0 := funext fun a => by fin_cases a <;> rfl

/-- What the body stores, at entry (p, q) of its block: with the left block a band of rows of X (row p of the band is
    row `row p` of X) and the right block all of W, the product's entry (row p, q). -/
theorem payload_apply (x0 : Vec Ideal S2000x16 .f32) (x1 : Vec Ideal S16x40 .f32)
    (X : FVec Ideal S100000x16 .f32) (W : FVec Ideal S16x40 .f32) (row : Fin 2000 → Fin 100000)
    (hx : ∀ p k, x0 (ix2 p k) = X (ix2 (row p) k)) (hw : ∀ k q, x1 (ix2 k q) = W (ix2 k q)) (p : Fin 2000) (q : Fin 40) :
    k1_pay1 x0 x1 (ix2 p q) = MatProduct.prod X W (ix2 (row p) q) := by
  unfold k1_pay1
  rw [shapeCast_self]
  exact MatProduct.band_apply none X W x0 x1 row hx hw p q

/-- The printed index maps over the 50 grid points: the left operand's and the result's blocks are band t, the right
    operand's block is always the whole matrix. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is band t of the product of the two input arrays as the region finds them. -/
theorem flushed_eq (c : Dev nD) (t : Fin cfg1.N) :
    (dat1 V c).flushed 2 t
      = ((cfg1.win 2).blk t).view.read (Elt Ideal) (MatProduct.prod (V c main_v47) (V c main_arg4)) := by
  show (cfg1.win 2).cut (grid1.coords t) ((dat1 V c).after 2 t) = _
  rw [after1_2]
  unfold out1_2
  rw [View.canon_unit_zero offset_zero]
  simp only [View.ld_unit_zero (S := S2000x16) offset_zero, View.ld_unit_zero (S := S16x40) offset_zero]
  obtain ⟨e00, e01, e10, e11, e20, e21⟩ := index_facts t
  have ht : t.val < 50 := by have h : cfg1.N = 50 := N_1; have := t.isLt; omega
  have hrow : ∀ p : Fin 2000, t.val * 2000 + p.val < 100000 := fun p => by have := p.isLt; omega
  funext j
  obtain ⟨p, q, rfl⟩ : ∃ (p : Fin 2000) (q : Fin 40), j = ix2 p q := ⟨j 0, j 1, eq_ix2 j⟩
  show k1_pay1 (iblk1 V c 0 t) (iblk1 V c 1 t) (ix2 p q)
    = MatProduct.prod (V c main_v47) (V c main_arg4) (((cfg1.win 2).blk t).view.emb (ix2 p q))
  have hout : ((cfg1.win 2).blk t).view.emb (ix2 p q) = ix2 (⟨t.val * 2000 + p.val, hrow p⟩ : Fin 100000) q := by
    funext a; apply Fin.ext
    match a with
    | ⟨0, _⟩ => show win1_2.index t (0 : Fin 2) * 2000 + 1 * p.val = t.val * 2000 + p.val; omega
    | ⟨1, _⟩ => show win1_2.index t (1 : Fin 2) * 40 + 1 * q.val = q.val; omega
  rw [hout]
  refine payload_apply (iblk1 V c 0 t) (iblk1 V c 1 t) (V c main_v47) (V c main_arg4)
    (fun p => ⟨t.val * 2000 + p.val, hrow p⟩) (fun p k => ?_) (fun k q => ?_) p q
  · show V c main_v47 (((cfg1.win 0).blk t).view.emb (ix2 p k)) = V c main_v47 (ix2 (⟨t.val * 2000 + p.val, hrow p⟩ : Fin 100000) k)
    refine congrArg (V c main_v47) ?_
    funext a; apply Fin.ext
    match a with
    | ⟨0, _⟩ => show win1_0.index t (0 : Fin 2) * 2000 + 1 * p.val = t.val * 2000 + p.val; omega
    | ⟨1, _⟩ => show win1_0.index t (1 : Fin 2) * 16 + 1 * k.val = k.val; omega
  · show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 16 + 1 * k.val = k.val; omega
    | ⟨1, _⟩ => show win1_1.index t (1 : Fin 2) * 40 + 1 * q.val = q.val; omega

/-- An entry of the result array is in point t's block iff each coordinate is in the block's range on its axis. -/
theorem mem_block (t : Fin cfg1.N) (i : S100000x40.Idx) :
    i ∈ ((cfg1.win 2).blk t).view.set ↔ ∀ a : Fin 2, win1_2.index t a * S2000x40.size a ≤ (i a).val
      ∧ (i a).val < win1_2.index t a * S2000x40.size a + S2000x40.size a := by
  show i ∈ ((View.whole main_v48).slice (win1_2.rect t)).set ↔ _
  rw [View.set_slice_whole, Rect.mem_set_unit]
  exact Iff.rfl

/-- The 50 bands of 2000 rows cover the result array: row r is in band r / 2000. -/
theorem covered (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 50 := N_1
  have hlt : (i 0).val / 2000 < cfg1.N := by omega
  obtain ⟨e00, e01, e10, e11, e20, e21⟩ := index_facts ⟨(i 0).val / 2000, hlt⟩
  refine ⟨⟨(i 0).val / 2000, hlt⟩, flush1_2 _, ?_⟩
  rw [mem_block]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    have e : win1_2.index ⟨(i 0).val / 2000, hlt⟩ (0 : Fin 2) = (i 0).val / 2000 := e20
    omega
  | ⟨1, _⟩ =>
    show win1_2.index ⟨(i 0).val / 2000, hlt⟩ (1 : Fin 2) * 40 ≤ (i 1).val
      ∧ (i 1).val < win1_2.index ⟨(i 0).val / 2000, hlt⟩ (1 : Fin 2) * 40 + 40
    omega

/-- The result array after the region: the product of the two input arrays as the region finds them. -/
theorem array_eq (c : Dev nD) :
    (dat1 V c).arrAt 2 cfg1.N = MatProduct.prod (V c main_v47) (V c main_arg4) :=
  (dat1 V c).arrAt_eq_of_cover 2 _ (fun t _ => flushed_eq V c t) covered

end Cert.KernelIdeal.SecondProduct

end
-- ==== Proof.LibHostRead.lean ====
/-
  Reading a buffer after a line of host operations.

  `StableHlo.after ops V b` is what buffer b holds once the operations have run in order from contents V: the last
  operation that writes b applied to what its operands held then, and so on back to V.  The tactic below computes
  that term for a literal list of operations.  It first runs the library's one-pass simplification; a read that ends
  up inside the operand list of a concatenate is not reached by it, so the library's rewriting loop goes on from
  there; operations of an inlined call carry their values through casts along an equation between a buffer's type and
  itself, which are then removed.  What is left is an equation between terms of the pure operations.
-/
import Idealize.ShloMosaic.Lib.StableHlo.Run

namespace Cert.HostRead

open Idealize.ShloMosaic Idealize.ShloMosaic.StableHlo

/-- Running one line of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- Computes `StableHlo.after ops V b` for a literal list `ops` down to the pure operations over `V`. -/
macro "read_after" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             try simp only [TRef.toBuf, TRef.ofBuf]
             repeat rw [cast_eq]))

end Cert.HostRead
-- ==== Proof.KernelHost.lean ====
/-
  The idealized kernel's host operations between and around its two tiled products, read back.

  The program's buffer contents at its segment boundaries are a fold: a stretch of host operations maps the contents V
  it starts from to `StableHlo.after ops V`, a region replaces its result array by what its write-backs leave.  Read at
  the buffers that matter, each stretch is one of the named pieces of the graph convolution (Cert.GraphConv) applied to
  what the stretch found: the first stretch computes the edge endpoints and the edge weights from the edge list; the
  second gathers, scales, scatter-adds, adds the bias and applies relu to the first product; the last does the same,
  without the relu, to the second product.  Chained, the result buffer ends at `twoLayers` of the six arguments.
-/
import proofs.«129669_j29978871726723_1_alg».proof.Proof.Gen.KernelIdeal.Frame
import proofs.«129669_j29978871726723_1_alg».proof.Proof.TwoLayers
import proofs.«129669_j29978871726723_1_alg».proof.Proof.FirstProduct
import proofs.«129669_j29978871726723_1_alg».proof.Proof.SecondProduct
import proofs.«129669_j29978871726723_1_alg».proof.Proof.LibHostRead
import Idealize.ShloMosaic.Lib.StableHlo.Run

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo Cert.HostRead

/-! ## Each stretch of host operations, from any contents `V` -/

section Stretches

variable (V : Valuation τ sig (Elt Ideal))

/-- The operations before the first product, as one fold. -/
abbrev before1 : Valuation τ sig (Elt Ideal) := StableHlo.after hostOps0_2 (StableHlo.after hostOps0_1 (StableHlo.after hostOps0 V))
/-- The operations between the two products, as one fold. -/
abbrev between : Valuation τ sig (Elt Ideal) := StableHlo.after hostOps1_1 (StableHlo.after hostOps1 V)

set_option maxHeartbeats 4000000 in
theorem before1_sources : before1 V (Proc.devRef .tc main_v3) = sources (V (Proc.devRef .tc main_arg1)) := by
  show StableHlo.after hostOps0_2 (StableHlo.after hostOps0_1 (StableHlo.after hostOps0 V)) (Proc.devRef .tc main_v3) = _
  read_after
  rfl
set_option maxHeartbeats 4000000 in
theorem before1_targets : before1 V (Proc.devRef .tc main_v6) = targets (V (Proc.devRef .tc main_arg1)) := by
  show StableHlo.after hostOps0_2 (StableHlo.after hostOps0_1 (StableHlo.after hostOps0 V)) (Proc.devRef .tc main_v6) = _
  read_after
  rfl
set_option maxHeartbeats 4000000 in
theorem before1_weights : before1 V (Proc.devRef .tc main_v29)
    = edgeWeights (sources (V (Proc.devRef .tc main_arg1))) (targets (V (Proc.devRef .tc main_arg1))) := by
  show StableHlo.after hostOps0_2 (StableHlo.after hostOps0_1 (StableHlo.after hostOps0 V)) (Proc.devRef .tc main_v29) = _
  read_after
  rfl
set_option maxHeartbeats 4000000 in
theorem before1_arg0 : before1 V (Proc.devRef .tc main_arg0) = V (Proc.devRef .tc main_arg0) := by
  show StableHlo.after hostOps0_2 (StableHlo.after hostOps0_1 (StableHlo.after hostOps0 V)) (Proc.devRef .tc main_arg0) = _
  after_results_simp
set_option maxHeartbeats 4000000 in
theorem before1_arg2 : before1 V (Proc.devRef .tc main_arg2) = V (Proc.devRef .tc main_arg2) := by
  show StableHlo.after hostOps0_2 (StableHlo.after hostOps0_1 (StableHlo.after hostOps0 V)) (Proc.devRef .tc main_arg2) = _
  after_results_simp
set_option maxHeartbeats 4000000 in
theorem before1_arg3 : before1 V (Proc.devRef .tc main_arg3) = V (Proc.devRef .tc main_arg3) := by
  show StableHlo.after hostOps0_2 (StableHlo.after hostOps0_1 (StableHlo.after hostOps0 V)) (Proc.devRef .tc main_arg3) = _
  after_results_simp
set_option maxHeartbeats 4000000 in
theorem before1_arg4 : before1 V (Proc.devRef .tc main_arg4) = V (Proc.devRef .tc main_arg4) := by
  show StableHlo.after hostOps0_2 (StableHlo.after hostOps0_1 (StableHlo.after hostOps0 V)) (Proc.devRef .tc main_arg4) = _
  after_results_simp
set_option maxHeartbeats 4000000 in
theorem before1_arg5 : before1 V (Proc.devRef .tc main_arg5) = V (Proc.devRef .tc main_arg5) := by
  show StableHlo.after hostOps0_2 (StableHlo.after hostOps0_1 (StableHlo.after hostOps0 V)) (Proc.devRef .tc main_arg5) = _
  after_results_simp

set_option maxHeartbeats 4000000 in
theorem between_hidden : between V (Proc.devRef .tc main_v47)
    = relu16 (aggregate16 (V (Proc.devRef .tc main_v30)) (V (Proc.devRef .tc main_v3)) (V (Proc.devRef .tc main_v6))
        (V (Proc.devRef .tc main_v29)) (V (Proc.devRef .tc main_arg3))) := by
  show StableHlo.after hostOps1_1 (StableHlo.after hostOps1 V) (Proc.devRef .tc main_v47) = _
  read_after
  rfl
set_option maxHeartbeats 4000000 in
theorem between_v3 : between V (Proc.devRef .tc main_v3) = V (Proc.devRef .tc main_v3) := by
  show StableHlo.after hostOps1_1 (StableHlo.after hostOps1 V) (Proc.devRef .tc main_v3) = _
  after_results_simp
set_option maxHeartbeats 4000000 in
theorem between_v6 : between V (Proc.devRef .tc main_v6) = V (Proc.devRef .tc main_v6) := by
  show StableHlo.after hostOps1_1 (StableHlo.after hostOps1 V) (Proc.devRef .tc main_v6) = _
  after_results_simp
set_option maxHeartbeats 4000000 in
theorem between_v29 : between V (Proc.devRef .tc main_v29) = V (Proc.devRef .tc main_v29) := by
  show StableHlo.after hostOps1_1 (StableHlo.after hostOps1 V) (Proc.devRef .tc main_v29) = _
  after_results_simp
set_option maxHeartbeats 4000000 in
theorem between_arg4 : between V (Proc.devRef .tc main_arg4) = V (Proc.devRef .tc main_arg4) := by
  show StableHlo.after hostOps1_1 (StableHlo.after hostOps1 V) (Proc.devRef .tc main_arg4) = _
  after_results_simp
set_option maxHeartbeats 4000000 in
theorem between_arg5 : between V (Proc.devRef .tc main_arg5) = V (Proc.devRef .tc main_arg5) := by
  show StableHlo.after hostOps1_1 (StableHlo.after hostOps1 V) (Proc.devRef .tc main_arg5) = _
  after_results_simp

set_option maxHeartbeats 4000000 in
theorem last_result : StableHlo.after hostOps2 V (Proc.devRef .tc main_v64)
    = aggregate40 (V (Proc.devRef .tc main_v48)) (V (Proc.devRef .tc main_v3)) (V (Proc.devRef .tc main_v6))
        (V (Proc.devRef .tc main_v29)) (V (Proc.devRef .tc main_arg5)) := by
  read_after
  rfl

end Stretches

/-! ## The fold through the whole program -/

variable (m : (ℓ : Loc nD τ sig) → Buf (Elt Ideal) ℓ) (ρ : Dev nD → PrngReg)

/-- After the first region the first product's array holds x · W1. -/
theorem W4_product (c : Dev nD) : W4 m ρ c (Proc.devRef .tc main_v30)
    = MatProduct.prod (m ((c : Thread nD τ).loc main_arg0)) (m ((c : Thread nD τ).loc main_arg2)) := by
  refine (W4_arr m ρ c 2).trans ((FirstProduct.array_eq (V3 m ρ) c).trans ?_)
  show MatProduct.prod (before1 (W0 m ρ c) (Proc.devRef .tc main_arg0)) (before1 (W0 m ρ c) (Proc.devRef .tc main_arg2)) = _
  rw [before1_arg0, before1_arg2]

/-- After the second region the second product's array holds (what the region found in the hidden buffer) · W2. -/
theorem W7_product (c : Dev nD) : W7 m ρ c (Proc.devRef .tc main_v48)
    = MatProduct.prod (W6 m ρ c (Proc.devRef .tc main_v47)) (W6 m ρ c (Proc.devRef .tc main_arg4)) :=
  (W7_arr m ρ c 2).trans (SecondProduct.array_eq (V6 m ρ) c)

set_option maxHeartbeats 4000000 in
/-- The result buffer's final contents: the two-layer function of the six arguments. -/
theorem W8_result (c : Dev nD) : W8 m ρ c (Proc.devRef .tc main_v64)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h3 : ∀ b : Ref sig .tc, (∀ w, Pipeline.arrRef spec0 w ≠ b) → W4 m ρ c (Proc.devRef .tc b) = before1 (W0 m ρ c) (Proc.devRef .tc b) :=
    fun b hb => W4_of_ne m ρ c b hb
  have h6 : ∀ b : Ref sig .tc, (∀ w, Pipeline.arrRef spec1 w ≠ b) → W7 m ρ c (Proc.devRef .tc b) = between (W4 m ρ c) (Proc.devRef .tc b) :=
    fun b hb => W7_of_ne m ρ c b hb
  show StableHlo.after hostOps2 (W7 m ρ c) (Proc.devRef .tc main_v64) = _
  rw [last_result, W7_product]
  show aggregate40 (MatProduct.prod (between (W4 m ρ c) (Proc.devRef .tc main_v47)) (between (W4 m ρ c) (Proc.devRef .tc main_arg4)))
      (W7 m ρ c (Proc.devRef .tc main_v3)) (W7 m ρ c (Proc.devRef .tc main_v6)) (W7 m ρ c (Proc.devRef .tc main_v29))
      (W7 m ρ c (Proc.devRef .tc main_arg5)) = _
  rw [h6 main_v3 (by decide), h6 main_v6 (by decide), h6 main_v29 (by decide), h6 main_arg5 (by decide),
    between_hidden, between_arg4, between_v3, between_v6, between_v29, between_arg5, W4_product,
    h3 main_v3 (by decide), h3 main_v6 (by decide), h3 main_v29 (by decide), h3 main_arg3 (by decide),
    h3 main_arg4 (by decide), h3 main_arg5 (by decide),
    before1_sources, before1_targets, before1_weights, before1_arg3, before1_arg4, before1_arg5]
  rfl

end Cert.KernelIdeal.Whole

end
-- ==== Proof.RefEndpoints.lean ====
/-
  The reference's first stretch of host operations: endpoints, first product, edge weights.

  From contents V, operations 1–41 append the self-loops to the two rows of the edge list, multiply the node features by
  the first weight matrix (the host's dot_general: the matrix product), count the degrees and form the edge weights.
  The first layer's bias and the second layer's weights and bias are not written.
-/
import proofs.«129669_j29978871726723_1_alg».proof.Proof.RefOps
import proofs.«129669_j29978871726723_1_alg».proof.Proof.TwoLayers
import proofs.«129669_j29978871726723_1_alg».proof.Proof.LibHostRead
import Idealize.ShloMosaic.Lib.StableHlo.Run

set_option maxRecDepth 16384

noncomputable section

namespace Cert.ReferenceIdeal.Whole

open Cert.ReferenceIdeal Cert.ReferenceIdeal.Gen Cert.ReferenceIdeal.HostRun Cert.GraphConv
open Idealize.ShloMosaic Idealize.ShloMosaic.TcCoe Idealize.SL.Sem Idealize.ShloMosaic.StableHlo Cert.HostRead

variable (V : Valuation τ sig (Elt Ideal))

/-- The host's first product is the matrix product. -/
theorem dot1_eq (x : FVec Ideal S100000x512 .f32) (w : FVec Ideal S512x16 .f32) :
    Host.dotGeneral dot_S100000x512_S512x16_S100000x16_1_0_0_1_n_n none x w = MatProduct.prod x w :=
  MatProduct.hostDot_eq none .single x w

set_option maxHeartbeats 4000000 in
theorem A_sources : StableHlo.after opsA V (Proc.devRef .tc main_v3) = sources (V (Proc.devRef .tc main_arg1)) := by
  read_after
  rfl
set_option maxHeartbeats 4000000 in
theorem A_targets : StableHlo.after opsA V (Proc.devRef .tc main_v6) = targets (V (Proc.devRef .tc main_arg1)) := by
  read_after
  rfl
set_option maxHeartbeats 4000000 in
theorem A_weights : StableHlo.after opsA V (Proc.devRef .tc main_v30)
    = edgeWeights (sources (V (Proc.devRef .tc main_arg1))) (targets (V (Proc.devRef .tc main_arg1))) := by
  read_after
  rfl
set_option maxHeartbeats 4000000 in
theorem A_product : StableHlo.after opsA V (Proc.devRef .tc main_v7)
    = MatProduct.prod (V (Proc.devRef .tc main_arg0)) (V (Proc.devRef .tc main_arg2)) := by
  read_after
  exact dot1_eq _ _
set_option maxHeartbeats 4000000 in
theorem A_arg3 : StableHlo.after opsA V (Proc.devRef .tc main_arg3) = V (Proc.devRef .tc main_arg3) := by after_results_simp
set_option maxHeartbeats 4000000 in
theorem A_arg4 : StableHlo.after opsA V (Proc.devRef .tc main_arg4) = V (Proc.devRef .tc main_arg4) := by after_results_simp
set_option maxHeartbeats 4000000 in
theorem A_arg5 : StableHlo.after opsA V (Proc.devRef .tc main_arg5) = V (Proc.devRef .tc main_arg5) := by after_results_simp

end Cert.ReferenceIdeal.Whole

end
-- ==== Proof.RefFirstLayer.lean ====
/-
  The reference's second stretch of host operations: the first layer's aggregation and relu.

  From contents V, operations 42–63 gather the rows of the first product at the edges' sources, scale them by the edge
  weights, add them up at the edges' targets, add the bias row and apply relu: the hidden node matrix is
  relu16 (aggregate16 …) of what the stretch found.  The endpoints, the second layer's weights and bias are not written.
-/
import proofs.«129669_j29978871726723_1_alg».proof.Proof.RefOps
import proofs.«129669_j29978871726723_1_alg».proof.Proof.TwoLayers
import proofs.«129669_j29978871726723_1_alg».proof.Proof.LibHostRead
import Idealize.ShloMosaic.Lib.StableHlo.Run

set_option maxRecDepth 16384

noncomputable section

namespace Cert.ReferenceIdeal.Whole

open Cert.ReferenceIdeal Cert.ReferenceIdeal.Gen Cert.ReferenceIdeal.HostRun Cert.GraphConv
open Idealize.ShloMosaic Idealize.ShloMosaic.TcCoe Idealize.SL.Sem Idealize.ShloMosaic.StableHlo Cert.HostRead

variable (V : Valuation τ sig (Elt Ideal))

set_option maxHeartbeats 4000000 in
theorem B_hidden : StableHlo.after opsB V (Proc.devRef .tc main_v47)
    = relu16 (aggregate16 (V (Proc.devRef .tc main_v7)) (V (Proc.devRef .tc main_v3)) (V (Proc.devRef .tc main_v6))
        (V (Proc.devRef .tc main_v30)) (V (Proc.devRef .tc main_arg3))) := by
  read_after
  rfl
set_option maxHeartbeats 4000000 in
theorem B_v3 : StableHlo.after opsB V (Proc.devRef .tc main_v3) = V (Proc.devRef .tc main_v3) := by after_results_simp
set_option maxHeartbeats 4000000 in
theorem B_v6 : StableHlo.after opsB V (Proc.devRef .tc main_v6) = V (Proc.devRef .tc main_v6) := by after_results_simp
set_option maxHeartbeats 4000000 in
theorem B_arg4 : StableHlo.after opsB V (Proc.devRef .tc main_arg4) = V (Proc.devRef .tc main_arg4) := by after_results_simp
set_option maxHeartbeats 4000000 in
theorem B_arg5 : StableHlo.after opsB V (Proc.devRef .tc main_arg5) = V (Proc.devRef .tc main_arg5) := by after_results_simp

end Cert.ReferenceIdeal.Whole

end
-- ==== Proof.RefSecondWeights.lean ====
/-
  The reference's third stretch of host operations: second product, edge weights again.

  From contents V, operations 64–97 multiply the hidden node matrix by the second weight matrix (the host's dot_general:
  the matrix product) and compute the degrees and the edge weights a second time, from the same endpoints: the same
  weights.  The endpoints and the second layer's bias are not written.
-/
import proofs.«129669_j29978871726723_1_alg».proof.Proof.RefOps
import proofs.«129669_j29978871726723_1_alg».proof.Proof.TwoLayers
import proofs.«129669_j29978871726723_1_alg».proof.Proof.LibHostRead
import Idealize.ShloMosaic.Lib.StableHlo.Run

set_option maxRecDepth 16384

noncomputable section

namespace Cert.ReferenceIdeal.Whole

open Cert.ReferenceIdeal Cert.ReferenceIdeal.Gen Cert.ReferenceIdeal.HostRun Cert.GraphConv
open Idealize.ShloMosaic Idealize.ShloMosaic.TcCoe Idealize.SL.Sem Idealize.ShloMosaic.StableHlo Cert.HostRead

variable (V : Valuation τ sig (Elt Ideal))

/-- The host's second product is the matrix product. -/
theorem dot2_eq (x : FVec Ideal S100000x16 .f32) (w : FVec Ideal S16x40 .f32) :
    Host.dotGeneral dot_S100000x16_S16x40_S100000x40_1_0_0_1_n_n none x w = MatProduct.prod x w :=
  MatProduct.hostDot_eq none .single x w

set_option maxHeartbeats 4000000 in
theorem C_product : StableHlo.after opsC V (Proc.devRef .tc main_v48)
    = MatProduct.prod (V (Proc.devRef .tc main_v47)) (V (Proc.devRef .tc main_arg4)) := by
  read_after
  exact dot2_eq _ _
set_option maxHeartbeats 4000000 in
theorem C_weights : StableHlo.after opsC V (Proc.devRef .tc main_v71)
    = edgeWeights (V (Proc.devRef .tc main_v3)) (V (Proc.devRef .tc main_v6)) := by
  read_after
  rfl
set_option maxHeartbeats 4000000 in
theorem C_v3 : StableHlo.after opsC V (Proc.devRef .tc main_v3) = V (Proc.devRef .tc main_v3) := by after_results_simp
set_option maxHeartbeats 4000000 in
theorem C_v6 : StableHlo.after opsC V (Proc.devRef .tc main_v6) = V (Proc.devRef .tc main_v6) := by after_results_simp
set_option maxHeartbeats 4000000 in
theorem C_arg5 : StableHlo.after opsC V (Proc.devRef .tc main_arg5) = V (Proc.devRef .tc main_arg5) := by after_results_simp

end Cert.ReferenceIdeal.Whole

end
-- ==== Proof.RefSecondLayer.lean ====
/-
  The reference's last stretch of host operations: the second layer's aggregation.

  From contents V, operations 98–116 gather the rows of the second product at the edges' sources, scale them by the edge
  weights, add them up at the edges' targets and add the bias row: the result is aggregate40 of what the stretch found.
-/
import proofs.«129669_j29978871726723_1_alg».proof.Proof.RefOps
import proofs.«129669_j29978871726723_1_alg».proof.Proof.TwoLayers
import proofs.«129669_j29978871726723_1_alg».proof.Proof.LibHostRead
import Idealize.ShloMosaic.Lib.StableHlo.Run

set_option maxRecDepth 16384

noncomputable section

namespace Cert.ReferenceIdeal.Whole

open Cert.ReferenceIdeal Cert.ReferenceIdeal.Gen Cert.ReferenceIdeal.HostRun Cert.GraphConv
open Idealize.ShloMosaic Idealize.ShloMosaic.TcCoe Idealize.SL.Sem Idealize.ShloMosaic.StableHlo Cert.HostRead

variable (V : Valuation τ sig (Elt Ideal))

set_option maxHeartbeats 4000000 in
theorem D_result : StableHlo.after opsD V (Proc.devRef .tc main_v87)
    = aggregate40 (V (Proc.devRef .tc main_v48)) (V (Proc.devRef .tc main_v3)) (V (Proc.devRef .tc main_v6))
        (V (Proc.devRef .tc main_v71)) (V (Proc.devRef .tc main_arg5)) := by
  read_after
  rfl

end Cert.ReferenceIdeal.Whole

end
-- ==== Proof.RefRun.lean ====
/-
  The idealized reference's run, read back.

  The reference is one line of 116 host operations.  Every weakly fair execution terminates with each buffer at the
  fold of the operations over the launch memory.  The line is read in four stretches (the endpoints, the first product
  and the edge weights; the first layer; the second product and the edge weights again; the second layer), each of
  which is a named piece of the graph convolution applied to what the stretch found.  Chained, the result buffer ends
  at `twoLayers` of the six arguments; no operation writes an argument buffer.
-/
import proofs.«129669_j29978871726723_1_alg».proof.Proof.RefEndpoints
import proofs.«129669_j29978871726723_1_alg».proof.Proof.RefFirstLayer
import proofs.«129669_j29978871726723_1_alg».proof.Proof.RefSecondWeights
import proofs.«129669_j29978871726723_1_alg».proof.Proof.RefSecondLayer

set_option maxRecDepth 16384

noncomputable section

namespace Cert.ReferenceIdeal.Whole

open Cert.ReferenceIdeal Cert.ReferenceIdeal.Gen Cert.ReferenceIdeal.HostRun Cert.GraphConv
open Idealize.ShloMosaic Idealize.ShloMosaic.TcCoe Idealize.SL.Sem Idealize.ShloMosaic.StableHlo Cert.HostRead

section Line

variable (V : Valuation τ sig (Elt Ideal))

set_option maxHeartbeats 4000000 in
/-- The whole line, read at the result buffer: the two-layer function of the six argument buffers' contents. -/
theorem result_eq : StableHlo.after ops V (Proc.devRef .tc main_v87)
    = twoLayers (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_split, after_append, after_append, after_append,
    D_result, C_product, C_weights, C_v3, C_v6, C_arg5,
    B_hidden, B_v3, B_v6, B_arg4, B_arg5,
    A_product, A_sources, A_targets, A_weights, A_arg3, A_arg4, A_arg5]
  rfl

set_option maxHeartbeats 4000000 in
theorem keeps_arg0 : StableHlo.after ops V (Proc.devRef .tc main_arg0) = V (Proc.devRef .tc main_arg0) := by
  rw [ops_split, after_append, after_append, after_append]
  show StableHlo.after opsD (StableHlo.after opsC (StableHlo.after opsB (StableHlo.after opsA V))) (Proc.devRef .tc main_arg0) = _
  after_results_simp
set_option maxHeartbeats 4000000 in
theorem keeps_arg1 : StableHlo.after ops V (Proc.devRef .tc main_arg1) = V (Proc.devRef .tc main_arg1) := by
  rw [ops_split, after_append, after_append, after_append]
  show StableHlo.after opsD (StableHlo.after opsC (StableHlo.after opsB (StableHlo.after opsA V))) (Proc.devRef .tc main_arg1) = _
  after_results_simp
set_option maxHeartbeats 4000000 in
theorem keeps_arg2 : StableHlo.after ops V (Proc.devRef .tc main_arg2) = V (Proc.devRef .tc main_arg2) := by
  rw [ops_split, after_append, after_append, after_append]
  show StableHlo.after opsD (StableHlo.after opsC (StableHlo.after opsB (StableHlo.after opsA V))) (Proc.devRef .tc main_arg2) = _
  after_results_simp
set_option maxHeartbeats 4000000 in
theorem keeps_arg3 : StableHlo.after ops V (Proc.devRef .tc main_arg3) = V (Proc.devRef .tc main_arg3) := by
  rw [ops_split, after_append, after_append, after_append]
  show StableHlo.after opsD (StableHlo.after opsC (StableHlo.after opsB (StableHlo.after opsA V))) (Proc.devRef .tc main_arg3) = _
  after_results_simp
set_option maxHeartbeats 4000000 in
theorem keeps_arg4 : StableHlo.after ops V (Proc.devRef .tc main_arg4) = V (Proc.devRef .tc main_arg4) := by
  rw [ops_split, after_append, after_append, after_append]
  show StableHlo.after opsD (StableHlo.after opsC (StableHlo.after opsB (StableHlo.after opsA V))) (Proc.devRef .tc main_arg4) = _
  after_results_simp
set_option maxHeartbeats 4000000 in
theorem keeps_arg5 : StableHlo.after ops V (Proc.devRef .tc main_arg5) = V (Proc.devRef .tc main_arg5) := by
  rw [ops_split, after_append, after_append, after_append]
  show StableHlo.after opsD (StableHlo.after opsC (StableHlo.after opsB (StableHlo.after opsA V))) (Proc.devRef .tc main_arg5) = _
  after_results_simp

end Line

/-! ## The run -/

/-- Every weakly fair execution of the reference terminates with the result buffer at the two-layer function of the
    arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87)
        = twoLayers (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v87).trans (result_eq (launchContents m c)),
       (h c main_arg0).trans (keeps_arg0 (launchContents m c)),
       (h c main_arg1).trans (keeps_arg1 (launchContents m c)),
       (h c main_arg2).trans (keeps_arg2 (launchContents m c)),
       (h c main_arg3).trans (keeps_arg3 (launchContents m c)),
       (h c main_arg4).trans (keeps_arg4 (launchContents m c)),
       (h c main_arg5).trans (keeps_arg5 (launchContents m c))⟩)
    (run_seq scopedRefs_eq scopedSems_eq defs main (fun _ => ops) main_eq (fun _ => ops_sub) m ρ)

end Cert.ReferenceIdeal.Whole

end
-- ==== Proof.lean ====
/-
  A two-layer graph convolution: a kernel program against its plain reference, over the extended reals.

  Both programs compute, from node features x [100000, 512], an edge list e [2, 3200000], weights W1 [512, 16],
  W2 [16, 40] and bias rows b1, b2,

      out = Agg( relu( Agg( x · W1 ; b1 ) ) · W2 ; b2 ),

  where Agg(h ; b) appends a self-loop to every node, weighs every edge by d(src)^(-1/2) · d(dst)^(-1/2) (d the
  in-degree, the factor 0 where it is not positive), gathers the rows of h at the edges' sources, scales them by the
  edge weights, adds them up at the edges' targets and adds the bias row b.

  The two programs differ only in how the two matrix products are spelt.  The reference calls the host's dot_general.
  The kernel tiles each product over 50 bands of 2000 rows: a band of the left matrix and the whole right matrix are
  rounded to bf16 — the identity over the extended reals — and multiplied into a zero accumulator.  Entry (p, q) of
  band t is then Σ_k a[2000 t + p, k] · w[k, q], the product's own entry (2000 t + p, q), and the bands tile the
  result; so each tiled product IS the product (Proof/FirstProduct.lean, Proof/SecondProduct.lean over
  Proof/LibMatProduct.lean).  Everything around the products is the same chain of host operations in both programs
  (Proof/GraphConv.lean names it; it is never opened), fed the same matrices; the reference computes the edge weights
  twice, from the same endpoints.  Hence both result arrays are the one function `twoLayers` of the arguments
  (Proof/TwoLayers.lean): the kernel's by Proof/KernelRun.lean and Proof/KernelHost.lean, the reference's by
  Proof/RefRun.lean.  No law of arithmetic beyond reading a matrix product entry by entry is used, so the finiteness
  of the inputs is never needed.  The kernel's idealization rewrote no operation: `preserves` is `True`.
-/
import proofs.«129669_j29978871726723_1_alg».proof.Defs
import proofs.«129669_j29978871726723_1_alg».proof.Proof.Gen.Kernel
import proofs.«129669_j29978871726723_1_alg».proof.Proof.Gen.Kernel.Skeleton
import proofs.«129669_j29978871726723_1_alg».proof.Proof.Gen.Kernel.Launch
import proofs.«129669_j29978871726723_1_alg».proof.Proof.Gen.Kernel.Points
import proofs.«129669_j29978871726723_1_alg».proof.Proof.Gen.Kernel.Frame
import proofs.«129669_j29978871726723_1_alg».proof.Proof.Gen.KernelIdeal
import proofs.«129669_j29978871726723_1_alg».proof.Proof.Gen.KernelIdeal.Skeleton
import proofs.«129669_j29978871726723_1_alg».proof.Proof.Gen.KernelIdeal.Launch
import proofs.«129669_j29978871726723_1_alg».proof.Proof.Gen.KernelIdeal.Points
import proofs.«129669_j29978871726723_1_alg».proof.Proof.Gen.KernelIdeal.Frame
import proofs.«129669_j29978871726723_1_alg».proof.Proof.Gen.ReferenceIdeal
import proofs.«129669_j29978871726723_1_alg».proof.Proof.Gen.Pre_finite_inputs
import proofs.«129669_j29978871726723_1_alg».proof.Proof.KernelRun
import proofs.«129669_j29978871726723_1_alg».proof.Proof.KernelHost
import proofs.«129669_j29978871726723_1_alg».proof.Proof.RefRun
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its run with the result dropped. -/
theorem frame_reference : Cert.frame_ReferenceIdeal := fun m ρ _ =>
  (θ_run Cert.ReferenceIdeal.defs _ _).mono (fun _ h c => (h c).2) (Cert.ReferenceIdeal.Whole.run m ρ)

/-- The idealization rewrote nothing. -/
theorem preserves : Cert.preserves_Kernel_KernelIdeal := trivial

/-- From memories that agree on the arguments both programs end with their result array at `twoLayers` of the
    arguments. -/
theorem algebraic : Cert.algebraic_KernelIdeal_ReferenceIdeal := by
  intro m ρ m' ρ' _ hagree
  refine ⟨fun c => Cert.GraphConv.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.W8_result m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Whole.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
